-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x256 : Shape := ⟨3, ![1024, 256, 256]⟩
abbrev S16x64x8 : Shape := ⟨3, ![16, 64, 8]⟩
abbrev S16x256x2 : Shape := ⟨3, ![16, 256, 2]⟩
abbrev S16 : Shape := ⟨1, ![16]⟩
abbrev S_ : Shape := ⟨0, ![]⟩

class Facts : Prop where
  bcast_S_S1024x256x256 : S_.BroadcastsInDim S1024x256x256 (![] : Fin 0 → Fin S1024x256x256.rank)
  reducesTo_S1024x256x256_S_d0_1_2 : S1024x256x256.ReducesTo [0, 1, 2] S_
  h_S_ : 0 < S_.numel
  bcast_S_S16x64x8 : S_.BroadcastsInDim S16x64x8 (![] : Fin 0 → Fin S16x64x8.rank)
  reducesTo_S16x64x8_S_d0_1_2 : S16x64x8.ReducesTo [0, 1, 2] S_
  bcast_S_S16x256x2 : S_.BroadcastsInDim S16x256x2 (![] : Fin 0 → Fin S16x256x2.rank)
  reducesTo_S16x256x2_S_d0_1_2 : S16x256x2.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S1024x256x256 .f32) (main_arg1 : FVec F S16x64x8 .f32) (main_arg2 : FVec F S16x256x2 .f32) (main_arg3 : FVec F S16 .f32) (main_arg4 : FVec F S16 .f32) : IVec S_ 1 :=
  let main_v0 : FVec F S1024x256x256 .f32 := Host.absf main_arg0
  let main_cst : FVec F S_ .f32 := constant S_ .f32 0x7F800000#32
  let main_v1 : FVec F S1024x256x256 .f32 := broadcastInDim S1024x256x256 ![] bcast_S_S1024x256x256 main_cst
  let main_v2 : IVec S1024x256x256 1 := cmpf .olt main_v0 main_v1
  let main_c : IVec S_ 1 := constantI S_ 1 1#1
  let main_v3 : IVec S_ 1 := (fun x v => Host.reduce IntOp.andi x v reducesTo_S1024x256x256_S_d0_1_2 h_S_) main_v2 main_c
  let main_v4 : FVec F S16x64x8 .f32 := Host.absf main_arg1
  let main_cst_0 : FVec F S_ .f32 := constant S_ .f32 0x7F800000#32
  let main_v5 : FVec F S16x64x8 .f32 := broadcastInDim S16x64x8 ![] bcast_S_S16x64x8 main_cst_0
  let main_v6 : IVec S16x64x8 1 := cmpf .olt main_v4 main_v5
  let main_c_1 : IVec S_ 1 := constantI S_ 1 1#1
  let main_v7 : IVec S_ 1 := (fun x v => Host.reduce IntOp.andi x v reducesTo_S16x64x8_S_d0_1_2 h_S_) main_v6 main_c_1
  let main_v8 : IVec S_ 1 := andi main_v3 main_v7
  let main_v9 : FVec F S16x256x2 .f32 := Host.absf main_arg2
  let main_cst_2 : FVec F S_ .f32 := constant S_ .f32 0x7F800000#32
  let main_v10 : FVec F S16x256x2 .f32 := broadcastInDim S16x256x2 ![] bcast_S_S16x256x2 main_cst_2
  let main_v11 : IVec S16x256x2 1 := cmpf .olt main_v9 main_v10
  let main_c_3 : IVec S_ 1 := constantI S_ 1 1#1
  let main_v12 : IVec S_ 1 := (fun x v => Host.reduce IntOp.andi x v reducesTo_S16x256x2_S_d0_1_2 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S1024x256x256 : Shape := ⟨3, ![1024, 256, 256]⟩
abbrev S16x64x8 : Shape := ⟨3, ![16, 64, 8]⟩
abbrev S16x256x2 : Shape := ⟨3, ![16, 256, 2]⟩
abbrev S16 : Shape := ⟨1, ![16]⟩
abbrev S1024x65536 : Shape := ⟨2, ![1024, 65536]⟩
abbrev S16x64x4 : Shape := ⟨3, ![16, 64, 4]⟩
abbrev S16x64x64 : Shape := ⟨3, ![16, 64, 64]⟩
abbrev S1x16x1x64x1x64 : Shape := ⟨6, ![1, 16, 1, 64, 1, 64]⟩
abbrev S1x16x4x64x4x64 : Shape := ⟨6, ![1, 16, 4, 64, 4, 64]⟩
abbrev S16x256x256 : Shape := ⟨3, ![16, 256, 256]⟩
abbrev S16x65536 : Shape := ⟨2, ![16, 65536]⟩
abbrev S16x256x1 : Shape := ⟨3, ![16, 256, 1]⟩
abbrev S1 : Shape := ⟨1, ![1]⟩
abbrev S_ : Shape := ⟨0, ![]⟩
abbrev S1x16 : Shape := ⟨2, ![1, 16]⟩
abbrev S1024x16 : Shape := ⟨2, ![1024, 16]⟩
abbrev S512x2048 : Shape := ⟨2, ![512, 2048]⟩
abbrev S16x2048 : Shape := ⟨2, ![16, 2048]⟩
abbrev S512x16 : Shape := ⟨2, ![512, 16]⟩
abbrev S512 : Shape := ⟨1, ![512]⟩
abbrev S512x1 : Shape := ⟨2, ![512, 1]⟩

abbrev nBuf : Space → Nat
  | .hbm => 38
  | .vmem => 8
  | .smem => 0
  | _ => 0

abbrev bufTy : (tb : Table) → Fin (tcTables nBuf tb) → BufTy
  | .hbm, ⟨0, _⟩ => ⟨S1024x256x256, .f32⟩
  | .hbm, ⟨1, _⟩ => ⟨S16x64x8, .f32⟩
  | .hbm, ⟨2, _⟩ => ⟨S16x256x2, .f32⟩
  | .hbm, ⟨3, _⟩ => ⟨S16, .f32⟩
  | .hbm, ⟨4, _⟩ => ⟨S16, .f32⟩
  | .hbm, ⟨5, _⟩ => ⟨S1024x65536, .f32⟩
  | .hbm, ⟨6, _⟩ => ⟨S16x64x4, .f32⟩
  | .hbm, ⟨7, _⟩ => ⟨S16x64x4, .f32⟩
  | .hbm, ⟨8, _⟩ => ⟨S16x64x64, .f32⟩
  | .hbm, ⟨9, _⟩ => ⟨S16x64x64, .f32⟩
  | .hbm, ⟨10, _⟩ => ⟨S16x64x64, .f32⟩
  | .hbm, ⟨11, _⟩ => ⟨S1x16x1x64x1x64, .f32⟩
  | .hbm, ⟨12, _⟩ => ⟨S1x16x4x64x4x64, .f32⟩
  | .hbm, ⟨13, _⟩ => ⟨S16x256x256, .f32⟩
  | .hbm, ⟨14, _⟩ => ⟨S16x65536, .f32⟩
  | .hbm, ⟨15, _⟩ => ⟨S16x256x1, .f32⟩
  | .hbm, ⟨16, _⟩ => ⟨S16x256x1, .f32⟩
  | .hbm, ⟨17, _⟩ => ⟨S16x256x256, .f32⟩
  | .hbm, ⟨18, _⟩ => ⟨S16x256x256, .f32⟩
  | .hbm, ⟨19, _⟩ => ⟨S16x256x256, .f32⟩
  | .hbm, ⟨20, _⟩ => ⟨S16x65536, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x65536, .f32⟩
  | .hbm, ⟨30, _⟩ => ⟨S16x65536, .f32⟩
  | .hbm, ⟨31, _⟩ => ⟨S_, .f32⟩
  | .hbm, ⟨32, _⟩ => ⟨S_, .f32⟩
  | .hbm, ⟨33, _⟩ => ⟨S16x65536, .f32⟩
  | .hbm, ⟨34, _⟩ => ⟨S16x65536, .f32⟩
  | .hbm, ⟨35, _⟩ => ⟨S16x65536, .f32⟩
  | .hbm, ⟨36, _⟩ => ⟨S1x16, .f32⟩
  | .hbm, ⟨37, _⟩ => ⟨S1024x16, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | _, _ => ⟨S1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024x256x256_S1024x65536 : S1024x256x256.ShapeCasts S1024x65536
  slices_S16x64x8_S16x64x4_0_0_4 : S16x64x8.Slices ![0, 0, 4] S16x64x4
  slices_S16x64x8_S16x64x4_0_0_0 : S16x64x8.Slices ![0, 0, 0] S16x64x4
  shapeCasts_S16x64x64_S1x16x1x64x1x64 : S16x64x64.ShapeCasts S1x16x1x64x1x64
  bcast_S1x16x1x64x1x64_S1x16x4x64x4x64_0_1_2_3_4_5 : S1x16x1x64x1x64.BroadcastsInDim S1x16x4x64x4x64 (![0, 1, 2, 3, 4, 5] : Fin 6 → Fin S1x16x4x64x4x64.rank)
  shapeCasts_S1x16x4x64x4x64_S16x256x256 : S1x16x4x64x4x64.ShapeCasts S16x256x256
  shapeCasts_S16x256x256_S16x65536 : S16x256x256.ShapeCasts S16x65536
  slices_S16x256x2_S16x256x1_0_0_1 : S16x256x2.Slices ![0, 0, 1] S16x256x1
  slices_S16x256x2_S16x256x1_0_0_0 : S16x256x2.Slices ![0, 0, 0] S16x256x1
  slices_S16_S1_0 : S16.Slices ![0] S1
  shapeCasts_S1_S_ : S1.ShapeCasts S_
  bcast_S_S16x65536 : S_.BroadcastsInDim S16x65536 (![] : Fin 0 → Fin S16x65536.rank)
  shapeCasts_S16_S1x16 : S16.ShapeCasts S1x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  shapeCasts_S512_S512x1 : S512.ShapeCasts S512x1
  broadcasts_S512x1_S512x16 : S512x1.Broadcasts S512x16
  dot_S16x64x4_S16x64x4_S16x64x64_2_2_1_1_0_0_wf : DotDims.WF S16x64x4 S16x64x4 S16x64x64 [2] [2] [1] [1] [0] [0]
  dot_S16x256x1_S16x256x1_S16x256x256_2_2_1_1_0_0_wf : DotDims.WF S16x256x1 S16x256x1 S16x256x256 [2] [2] [1] [1] [0] [0]
  dot_S512x2048_S16x2048_S512x16_1_1_0_0_n_n_wf : DotDims.WF S512x2048 S16x2048 S512x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x65536.size a
  hwx0_0 : ∀ i : grid0.Coords, EltTy.bits .f32 = 32 ∨ (Rect.block (s := S1024x65536) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x65536.size a
  hwx0_1 : ∀ i : grid0.Coords, EltTy.bits .f32 = 32 ∨ (Rect.block (s := S16x65536) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S1024x16.size a
  hwx0_3 : ∀ i : grid0.Coords, EltTy.bits .f32 = 32 ∨ (Rect.block (s := S1024x16) S512x16.size (cc0_transform_3 i) (hinb0_3 i)).WholeWords (EltTy.packing .f32)

variable [Facts₀]

def dot_S16x64x4_S16x64x4_S16x64x64_2_2_1_1_0_0 : DotDims S16x64x4 S16x64x4 S16x64x64 where
  lhsContracting := [2]
  rhsContracting := [2]
  lhsNonContracting := [1]
  rhsNonContracting := [1]
  lhsBatch := [0]
  rhsBatch := [0]
  wf := dot_S16x64x4_S16x64x4_S16x64x64_2_2_1_1_0_0_wf
def dot_S16x256x1_S16x256x1_S16x256x256_2_2_1_1_0_0 : DotDims S16x256x1 S16x256x1 S16x256x256 where
  lhsContracting := [2]
  rhsContracting := [2]
  lhsNonContracting := [1]
  rhsNonContracting := [1]
  lhsBatch := [0]
  rhsBatch := [0]
  wf := dot_S16x256x1_S16x256x1_S16x256x256_2_2_1_1_0_0_wf
def dot_S512x2048_S16x2048_S512x16_1_1_0_0_n_n : DotDims S512x2048 S16x2048 S512x16 where
  lhsContracting := [1]
  rhsContracting := [1]
  lhsNonContracting := [0]
  rhsNonContracting := [0]
  lhsBatch := []
  rhsBatch := []
  wf := dot_S512x2048_S16x2048_S512x16_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x256x256 : Shape := ⟨3, ![1024, 256, 256]⟩
abbrev S16x64x8 : Shape := ⟨3, ![16, 64, 8]⟩
abbrev S16x256x2 : Shape := ⟨3, ![16, 256, 2]⟩
abbrev S16 : Shape := ⟨1, ![16]⟩
abbrev S1024x65536 : Shape := ⟨2, ![1024, 65536]⟩
abbrev S16x64x4 : Shape := ⟨3, ![16, 64, 4]⟩
abbrev S16x64x64 : Shape := ⟨3, ![16, 64, 64]⟩
abbrev S1x16x1x64x1x64 : Shape := ⟨6, ![1, 16, 1, 64, 1, 64]⟩
abbrev S1x16x4x64x4x64 : Shape := ⟨6, ![1, 16, 4, 64, 4, 64]⟩
abbrev S16x256x256 : Shape := ⟨3, ![16, 256, 256]⟩
abbrev S16x65536 : Shape := ⟨2, ![16, 65536]⟩
abbrev S16x256x1 : Shape := ⟨3, ![16, 256, 1]⟩
abbrev S1 : Shape := ⟨1, ![1]⟩
abbrev S_ : Shape := ⟨0, ![]⟩
abbrev S65536x16 : Shape := ⟨2, ![65536, 16]⟩
abbrev S1024x16 : Shape := ⟨2, ![1024, 16]⟩
abbrev S1x16 : Shape := ⟨2, ![1, 16]⟩
abbrev S1024 : Shape := ⟨1, ![1024]⟩
abbrev S1024x1 : Shape := ⟨2, ![1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S1024x256x256, .f32⟩
  | .hbm, ⟨1, _⟩ => ⟨S16x64x8, .f32⟩
  | .hbm, ⟨2, _⟩ => ⟨S16x256x2, .f32⟩
  | .hbm, ⟨3, _⟩ => ⟨S16, .f32⟩
  | .hbm, ⟨4, _⟩ => ⟨S16, .f32⟩
  | .hbm, ⟨5, _⟩ => ⟨S1024x65536, .f32⟩
  | .hbm, ⟨6, _⟩ => ⟨S16x64x4, .f32⟩
  | .hbm, ⟨7, _⟩ => ⟨S16x64x4, .f32⟩
  | .hbm, ⟨8, _⟩ => ⟨S16x64x64, .f32⟩
  | .hbm, ⟨9, _⟩ => ⟨S16x64x64, .f32⟩
  | .hbm, ⟨10, _⟩ => ⟨S16x64x64, .f32⟩
  | .hbm, ⟨11, _⟩ => ⟨S1x16x1x64x1x64, .f32⟩
  | .hbm, ⟨12, _⟩ => ⟨S1x16x4x64x4x64, .f32⟩
  | .hbm, ⟨13, _⟩ => ⟨S16x256x256, .f32⟩
  | .hbm, ⟨14, _⟩ => ⟨S16x65536, .f32⟩
  | .hbm, ⟨15, _⟩ => ⟨S16x256x1, .f32⟩
  | .hbm, ⟨16, _⟩ => ⟨S16x256x1, .f32⟩
  | .hbm, ⟨17, _⟩ => ⟨S16x256x256, .f32⟩
  | .hbm, ⟨18, _⟩ => ⟨S16x256x256, .f32⟩
  | .hbm, ⟨19, _⟩ => ⟨S16x256x256, .f32⟩
  | .hbm, ⟨20, _⟩ => ⟨S16x65536, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x65536, .f32⟩
  | .hbm, ⟨30, _⟩ => ⟨S16x65536, .f32⟩
  | .hbm, ⟨31, _⟩ => ⟨S_, .f32⟩
  | .hbm, ⟨32, _⟩ => ⟨S_, .f32⟩
  | .hbm, ⟨33, _⟩ => ⟨S16x65536, .f32⟩
  | .hbm, ⟨34, _⟩ => ⟨S16x65536, .f32⟩
  | .hbm, ⟨35, _⟩ => ⟨S16x65536, .f32⟩
  | .hbm, ⟨36, _⟩ => ⟨S65536x16, .f32⟩
  | .hbm, ⟨37, _⟩ => ⟨S1024x16, .f32⟩
  | .hbm, ⟨38, _⟩ => ⟨S1x16, .f32⟩
  | .hbm, ⟨39, _⟩ => ⟨S1024x16, .f32⟩
  | .hbm, ⟨40, _⟩ => ⟨S1024x16, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024x1, .f32⟩
  | .hbm, ⟨47, _⟩ => ⟨S1024x16, .f32⟩
  | .hbm, ⟨48, _⟩ => ⟨S1024x16, .f32⟩
  | .hbm, ⟨49, _⟩ => ⟨S1024x16, .f32⟩
  | .hbm, ⟨50, _⟩ => ⟨S_, .f32⟩
  | .hbm, ⟨51, _⟩ => ⟨S1024, .f32⟩
  | .hbm, ⟨52, _⟩ => ⟨S1024x1, .f32⟩
  | .hbm, ⟨53, _⟩ => ⟨S1024x16, .f32⟩
  | .hbm, ⟨54, _⟩ => ⟨S1024x16, .f32⟩
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  shapeCasts_S1024x256x256_S1024x65536 : S1024x256x256.ShapeCasts S1024x65536
  slices_S16x64x8_S16x64x4_0_0_4 : S16x64x8.Slices ![0, 0, 4] S16x64x4
  slices_S16x64x8_S16x64x4_0_0_0 : S16x64x8.Slices ![0, 0, 0] S16x64x4
  shapeCasts_S16x64x64_S1x16x1x64x1x64 : S16x64x64.ShapeCasts S1x16x1x64x1x64
  bcast_S1x16x1x64x1x64_S1x16x4x64x4x64_0_1_2_3_4_5 : S1x16x1x64x1x64.BroadcastsInDim S1x16x4x64x4x64 (![0, 1, 2, 3, 4, 5] : Fin 6 → Fin S1x16x4x64x4x64.rank)
  shapeCasts_S1x16x4x64x4x64_S16x256x256 : S1x16x4x64x4x64.ShapeCasts S16x256x256
  shapeCasts_S16x256x256_S16x65536 : S16x256x256.ShapeCasts S16x65536
  slices_S16x256x2_S16x256x1_0_0_1 : S16x256x2.Slices ![0, 0, 1] S16x256x1
  slices_S16x256x2_S16x256x1_0_0_0 : S16x256x2.Slices ![0, 0, 0] S16x256x1
  slices_S16_S1_0 : S16.Slices ![0] S1
  shapeCasts_S1_S_ : S1.ShapeCasts S_
  bcast_S_S16x65536 : S_.BroadcastsInDim S16x65536 (![] : Fin 0 → Fin S16x65536.rank)
  transposes_S16x65536_S65536x16_1_0 : S16x65536.Transposes [1, 0] S65536x16
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  reducesTo_S1024x16_S1024_d1 : S1024x16.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  dot_S16x64x4_S16x64x4_S16x64x64_2_2_1_1_0_0_wf : DotDims.WF S16x64x4 S16x64x4 S16x64x64 [2] [2] [1] [1] [0] [0]
  dot_S16x256x1_S16x256x1_S16x256x256_2_2_1_1_0_0_wf : DotDims.WF S16x256x1 S16x256x1 S16x256x256 [2] [2] [1] [1] [0] [0]
  dot_S1024x65536_S65536x16_S1024x16_1_0_0_1_n_n_wf : DotDims.WF S1024x65536 S65536x16 S1024x16 [1] [0] [0] [1] [] []

variable [Facts₀]

def dot_S16x64x4_S16x64x4_S16x64x64_2_2_1_1_0_0 : DotDims S16x64x4 S16x64x4 S16x64x64 where
  lhsContracting := [2]
  rhsContracting := [2]
  lhsNonContracting := [1]
  rhsNonContracting := [1]
  lhsBatch := [0]
  rhsBatch := [0]
  wf := dot_S16x64x4_S16x64x4_S16x64x64_2_2_1_1_0_0_wf
def dot_S16x256x1_S16x256x1_S16x256x256_2_2_1_1_0_0 : DotDims S16x256x1 S16x256x1 S16x256x256 where
  lhsContracting := [2]
  rhsContracting := [2]
  lhsNonContracting := [1]
  rhsNonContracting := [1]
  lhsBatch := [0]
  rhsBatch := [0]
  wf := dot_S16x256x1_S16x256x1_S16x256x256_2_2_1_1_0_0_wf
def dot_S1024x65536_S65536x16_S1024x16_1_0_0_1_n_n : DotDims S1024x65536 S65536x16 S1024x16 where
  lhsContracting := [1]
  rhsContracting := [0]
  lhsNonContracting := [0]
  rhsNonContracting := [1]
  lhsBatch := []
  rhsBatch := []
  wf := dot_S1024x65536_S65536x16_S1024x16_1_0_0_1_n_n_wf

class Facts : Prop extends Facts₀ where

variable [Facts]
-- ==== Proof.Spec.lean ====
/-
  The result of both programs as ONE function of three arrays, over the extended reals.

  With `X` the inputs flattened to [1024, 65536], `W` the per-class weight matrix [16, 65536] and `b` the bias [16],
  row `r` of the result is the softmax of the sixteen scores

      score r c = (∑ k, X[r, k] · W[c, k]) + b[c],

  taken the way both programs take it: subtract the row's maximum (itself the maximum of minus infinity and the
  running maximum from minus infinity), exponentiate, divide by the row's sum of exponentials.

  Also here: the one law that separates the two programs' arithmetic. The kernel contracts the 65536 columns in 32
  consecutive blocks of 2048 and adds the block sums up; the reference contracts them at once. On the extended
  reals addition is commutative and associative (no finiteness is needed for that), so a sum over `Fin (m · n)`
  is the sum over the `m` blocks of the sums over the `n` positions inside a block.
-/
import Idealize.ShloMosaic.PureOps.Ideal
import Idealize.ShloMosaic.PureOps.Ideal.Laws
import Idealize.ShloMosaic.Lib.ValueIdx

noncomputable section

open scoped BigOperators

namespace Cert.ClassProbs

open Idealize.ShloMosaic Idealize.ShloMosaic.ValueIdx

/-- Minus infinity, as the float word both programs start their row maximum from. -/
abbrev negInf : Ideal .f32 := Ideal.ofBits .f32 0xFF800000#32

/-- A row's maximum as both programs compute it: the maximum of minus infinity and the fold of `max` from minus
    infinity over the sixteen entries. -/
def rowMax (s : Fin 16 → Ideal .f32) : Ideal .f32 := max negInf (Finset.univ.fold max negInf s)

/-- The softmax of a row of sixteen scores, entry `q`: `exp (s q - max) / ∑ c, exp (s c - max)`. -/
def rowSoftmax (s : Fin 16 → Ideal .f32) (q : Fin 16) : Ideal .f32 :=
  Ideal.div (Ideal.exp (s q - rowMax s)) (∑ c : Fin 16, Ideal.exp (s c - rowMax s))

/-- The score of row `r` for class `c`: the full contraction over the 65536 columns, plus the class's bias. -/
def score (X : FVec Ideal ⟨2, ![1024, 65536]⟩ .f32) (W : FVec Ideal ⟨2, ![16, 65536]⟩ .f32) (b : FVec Ideal ⟨1, ![16]⟩ .f32)
    (r : Fin 1024) (c : Fin 16) : Ideal .f32 :=
  (∑ k : Fin 65536, X (ix2 r k) * W (ix2 c k)) + b (ix1 c)

/-- The whole [1024, 16] result: row by row the softmax of the scores. -/
def classProbs (X : FVec Ideal ⟨2, ![1024, 65536]⟩ .f32) (W : FVec Ideal ⟨2, ![16, 65536]⟩ .f32) (b : FVec Ideal ⟨1, ![16]⟩ .f32) :
    FVec Ideal ⟨2, ![1024, 16]⟩ .f32 :=
  fun i => rowSoftmax (score X W b (i 0)) (i 1)

/-- A sum over `m · n` consecutive positions is the sum over `m` blocks of the sums over the `n` positions of a
    block: position `n · s + j` is position `j` of block `s`. -/
theorem sum_blocks (f : ℕ → EReal) (m n : ℕ) :
    ∑ k : Fin (m * n), f k.val = ∑ s ∈ Finset.range m, ∑ j : Fin n, f (n * s + j.val) := by
  rw [← Equiv.sum_comp finProdFinEquiv, Fintype.sum_prod_type,
    ← Fin.sum_univ_eq_sum_range (fun s => ∑ j : Fin n, f (n * s + j.val)) m]
  refine Finset.sum_congr rfl fun x _ => Finset.sum_congr rfl fun y _ => ?_
  congr 1
  rw [finProdFinEquiv_apply_val]
  exact Nat.add_comm _ _

/-- The 65536 columns as 32 blocks of 2048. -/
theorem sum_columns (f : ℕ → EReal) :
    ∑ k : Fin 65536, f k.val = ∑ s ∈ Finset.range 32, ∑ j : Fin 2048, f (2048 * s + j.val) :=
  sum_blocks f 32 2048

end Cert.ClassProbs

end
-- ==== Proof.Pieces.lean ====
/-
  What one run of the kernel body leaves behind, as values.

  The body keeps a [512, 16] accumulator between grid points. At the first column block of a row block it stores the
  zero block and then adds that block's partial products to it; at every later column block it adds the block's
  partial products to what the point before left; at the last column block it also turns the accumulated scores
  (plus the bias row) into the softmax and stores that into the output block. Each stored value is read back here as
  the body's own arithmetic (the three pure terms `k0_pay1` = the zero block, `k0_pay2` = accumulator plus partial
  products, `k0_pay3` = bias, softmax) applied to the blocks the body loaded: every store covers its whole buffer,
  and every load reads a whole buffer.
-/
import proofs.«115069_j23124103922240_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- First column block of a row block: the accumulator ends at the zero block plus this block's partial products. -/
theorem scratch_A (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : cond0_0 i) (hc1 : ¬cond0_1 i)
    (x0 : Vec F S512x2048 .f32) (x1 : Vec F S16x2048 .f32) (x2 : Vec F S1x16 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x16) hz, View.readCov_unit_zero (S := S512x16) _ hz]
  simp only [View.readAt_eq_ld, harg2.read_unread, harg3.read_unread, harg4.read_unread, harg6.read_unread, View.ld_unit_zero (S := S512x2048) hz, View.ld_unit_zero (S := S16x2048) hz, View.ld_unit_zero (S := S512x16) hz, View.ld_unit_zero (S := S1x16) hz]

/-- A middle column block: the accumulator ends at what the point before left plus this block's partial products. -/
theorem scratch_B (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : ¬cond0_0 i) (hc1 : ¬cond0_1 i)
    (x0 : Vec F S512x2048 .f32) (x1 : Vec F S16x2048 .f32) (x2 : Vec F S1x16 .f32) (xs0 : Vec F S512x16 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S512x2048) hz, View.ld_unit_zero (S := S16x2048) hz, View.ld_unit_zero (S := S512x16) hz, View.ld_unit_zero (S := S1x16) hz]

/-- The last column block: the accumulator as at a middle block, -/
theorem scratch_C (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : ¬cond0_0 i) (hc1 : cond0_1 i)
    (x0 : Vec F S512x2048 .f32) (x1 : Vec F S16x2048 .f32) (x2 : Vec F S1x16 .f32) (xs0 : Vec F S512x16 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x2048) hz, View.ld_unit_zero (S := S16x2048) hz, View.ld_unit_zero (S := S512x16) hz, View.ld_unit_zero (S := S1x16) hz]

/-- and the output block: the softmax of that final accumulator plus the bias row. -/
theorem out_C (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : ¬cond0_0 i) (hc1 : cond0_1 i)
    (x0 : Vec F S512x2048 .f32) (x1 : Vec F S16x2048 .f32) (x2 : Vec F S1x16 .f32) (xs0 : Vec F S512x16 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S512x16) _ hz]
  simp only [View.readAt_eq_ld, harg2.read_unread, harg3.read_unread, harg4.read_unread, harg6.read_unread, View.ld_unit_zero (S := S512x2048) hz, View.ld_unit_zero (S := S16x2048) hz, View.ld_unit_zero (S := S512x16) hz, View.ld_unit_zero (S := S1x16) hz]

end Cert.KernelIdeal.Pieces

end
-- ==== Proof.Blocks.lean ====
/-
  The windows' blocks as pieces of the whole arrays.

  Grid point `t` (of 64, row blocks outermost) is row block `t / 32` and column block `t % 32`. There the kernel
  sees rows `512·(t/32) … 512·(t/32)+511` and columns `2048·(t%32) … 2048·(t%32)+2047` of the flattened inputs, the
  same columns of all sixteen rows of the weight matrix, and the whole bias row. To add such entries up over all
  column blocks without carrying bounds around, a two-axis array is extended to all pairs of naturals by zero outside
  its extent (`at2`); inside the extent it is the array.
-/
import proofs.«115069_j23124103922240_2_alg».proof.Proof.Gen.KernelIdeal.Frame
import Idealize.ShloMosaic.Lib.Pipeline.Value
import Idealize.ShloMosaic.Lib.ValueIdx
import Idealize.ShloMosaic.PureOps.Ideal

noncomputable section

open Idealize.ShloMosaic Idealize.ShloMosaic.TcCoe Idealize.SL.Sem

namespace Cert.KernelIdeal.Blocks

open Cert.KernelIdeal Cert.KernelIdeal.Gen Idealize.ShloMosaic.ValueIdx

/-- A two-axis array read at natural coordinates: its entry inside the extent, zero outside. -/
def at2 {a b : ℕ} (A : (⟨2, ![a, b]⟩ : Shape).Idx → EReal) (r k : ℕ) : EReal :=
  if h : r < a ∧ k < b then A (ix2 ⟨r, h.1⟩ ⟨k, h.2⟩) else 0

theorem at2_of_lt {a b : ℕ} (A : (⟨2, ![a, b]⟩ : Shape).Idx → EReal) (r k : ℕ) (hr : r < a) (hk : k < b) :
    at2 A r k = A (ix2 ⟨r, hr⟩ ⟨k, hk⟩) := dif_pos ⟨hr, hk⟩

/-- Where each window's block sits at point `t`: block indices along the two axes, for the three inputs and the
    output (decided over the 64 points). -/
theorem index_facts : ∀ t : Fin cfg0.N,
    win0_0.index t 0 = t.val / 32 ∧ win0_0.index t 1 = t.val % 32
    ∧ win0_1.index t 0 = 0 ∧ win0_1.index t 1 = t.val % 32
    ∧ win0_2.index t 0 = 0 ∧ win0_2.index t 1 = 0
    ∧ win0_3.index t 0 = t.val / 32 ∧ win0_3.index t 1 = 0 :=
  (by decide +kernel : ∀ t : Fin grid0.N,
    win0_0.index t 0 = t.val / 32 ∧ win0_0.index t 1 = t.val % 32
    ∧ win0_1.index t 0 = 0 ∧ win0_1.index t 1 = t.val % 32
    ∧ win0_2.index t 0 = 0 ∧ win0_2.index t 1 = 0
    ∧ win0_3.index t 0 = t.val / 32 ∧ win0_3.index t 1 = 0)

variable (m : (ℓ : Loc nD τ sig) → Buf (Elt Ideal) ℓ)

/-- The inputs' block at point `t`, entry `(p, j)`: row `512·(t/32) + p`, column `2048·(t%32) + j` of the flattened
    inputs. -/
theorem inputs_block (c : Dev nD) (t : Fin cfg0.N) (p : Fin 512) (j : Fin 2048) :
    (iblk m c 0 t : S512x2048.Idx → EReal) (ix2 p j)
      = at2 (V m c main_v0 : S1024x65536.Idx → EReal) (512 * (t.val / 32) + p.val) (2048 * (t.val % 32) + j.val) := by
  have hN : t.val < 64 := lt_of_lt_of_eq t.isLt N_0
  have hp := p.isLt
  have hj := j.isLt
  rw [at2_of_lt _ _ _ (by omega) (by omega)]
  unfold iblk
  rw [View.read_apply]
  show V m c main_v0 _ = V m c main_v0 _
  congr 1
  funext a
  apply Fin.ext
  match a with
  | ⟨0, _⟩ => show win0_0.index t 0 * 512 + 1 * p.val = 512 * (t.val / 32) + p.val; rw [(index_facts t).1]; omega
  | ⟨1, _⟩ => show win0_0.index t 1 * 2048 + 1 * j.val = 2048 * (t.val % 32) + j.val; rw [(index_facts t).2.1]; omega

/-- The weight matrix's block at point `t`, entry `(q, j)`: row `q`, column `2048·(t%32) + j`. -/
theorem weights_block (c : Dev nD) (t : Fin cfg0.N) (q : Fin 16) (j : Fin 2048) :
    (iblk m c 1 t : S16x2048.Idx → EReal) (ix2 q j)
      = at2 (V m c main_v27 : S16x65536.Idx → EReal) q.val (2048 * (t.val % 32) + j.val) := by
  have hN : t.val < 64 := lt_of_lt_of_eq t.isLt N_0
  have hq := q.isLt
  have hj := j.isLt
  rw [at2_of_lt _ _ _ (by omega) (by omega)]
  unfold iblk
  rw [View.read_apply]
  show V m c main_v27 _ = V m c main_v27 _
  congr 1
  funext a
  apply Fin.ext
  match a with
  | ⟨0, _⟩ => show win0_1.index t 0 * 16 + 1 * q.val = q.val; rw [(index_facts t).2.2.1]; omega
  | ⟨1, _⟩ => show win0_1.index t 1 * 2048 + 1 * j.val = 2048 * (t.val % 32) + j.val; rw [(index_facts t).2.2.2.1]; omega

/-- The bias window's block is the whole bias row at every point. -/
theorem bias_block (c : Dev nD) (t : Fin cfg0.N) (q : Fin 16) :
    (iblk m c 2 t : S1x16.Idx → EReal) (ix2 (0 : Fin 1) q) = (V m c main_v28 : S1x16.Idx → EReal) (ix2 (0 : Fin 1) q) := by
  unfold iblk
  rw [View.read_apply]
  show V m c main_v28 _ = V m c main_v28 _
  congr 1
  funext a
  apply Fin.ext
  match a with
  | ⟨0, _⟩ => show win0_2.index t 0 * 1 + 1 * 0 = 0; rw [(index_facts t).2.2.2.2.1]
  | ⟨1, _⟩ => show win0_2.index t 1 * 16 + 1 * q.val = q.val; rw [(index_facts t).2.2.2.2.2.1]; omega

end Cert.KernelIdeal.Blocks

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.Payloads.lean ====
/-
  The kernel body's three stored values, read at one index, over the extended reals.

  The body keeps a [512, 16] tile of partial scores. At the first block of the contraction it resets the tile to
  zero; at every block it adds to each entry (p, q) the inner product of row p of the [512, 2048] block of inputs
  with row q of the [16, 2048] block of weights; after the last block it adds the bias row and takes the softmax of
  each row of sixteen scores: subtract the row's maximum (the maximum of minus infinity and the running maximum from
  minus infinity), exponentiate, divide by the row's sum of exponentials.

  Each of the three is read here entry by entry: the reset value is 0; one step adds a sum over the 2048 positions
  of the block; the last value is the specification's row softmax of the biased scores.
-/
import proofs.«115069_j23124103922240_2_alg».proof.Proof.Gen.KernelIdeal.Skeleton
import proofs.«115069_j23124103922240_2_alg».proof.Proof.Spec
import proofs.«115069_j23124103922240_2_alg».proof.Proof.LibColumnBroadcast
import proofs.«115069_j23124103922240_2_alg».proof.Proof.LibUnitAxes
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx
open Cert.ClassProbs (negInf rowMax rowSoftmax)

/-! ## The reset value -/

/-- The tile the first block starts from: every entry is the extended real 0. -/
theorem pay1_apply (p : Fin 512) (q : Fin 16) : k0_pay1 (F := Ideal) (ix2 p q) = 0 := by
  unfold k0_pay1
  rw [shapeCast_self, broadcast_apply]
  exact Ideal.ofBits_zero_f32

/-! ## One accumulation step -/

/-- The block product keeps the left operand's row: its axis 0 is the output's axis 0. -/
theorem lhs_row (i : S512x16.Idx) (k : dot_S512x2048_S16x2048_S512x16_1_1_0_0_n_n.contr.Idx) :
    (dot_S512x2048_S16x2048_S512x16_1_1_0_0_n_n.lhsIdx i k 0).val = (i 0).val := by
  unfold DotDims.lhsIdx
  rw [dif_neg (show ¬(0 : Fin S512x2048.rank) ∈ dot_S512x2048_S16x2048_S512x16_1_1_0_0_n_n.lhsBatch by decide),
    dif_pos (show (0 : Fin S512x2048.rank) ∈ dot_S512x2048_S16x2048_S512x16_1_1_0_0_n_n.lhsNonContracting by decide)]
  rfl

/-- It contracts the left operand's axis 1. -/
theorem lhs_col (i : S512x16.Idx) (k : dot_S512x2048_S16x2048_S512x16_1_1_0_0_n_n.contr.Idx) :
    (dot_S512x2048_S16x2048_S512x16_1_1_0_0_n_n.lhsIdx i k 1).val = (k ⟨0, by decide⟩).val :=
  dot_S512x2048_S16x2048_S512x16_1_1_0_0_n_n.lhsIdx_val_of_single rfl i k

/-- The right operand's row — its axis 0 — is the output's column. -/
theorem rhs_row (i : S512x16.Idx) (k : dot_S512x2048_S16x2048_S512x16_1_1_0_0_n_n.contr.Idx) :
    (dot_S512x2048_S16x2048_S512x16_1_1_0_0_n_n.rhsIdx i k 0).val = (i 1).val := by
  unfold DotDims.rhsIdx
  rw [dif_neg (show ¬(0 : Fin S16x2048.rank) ∈ dot_S512x2048_S16x2048_S512x16_1_1_0_0_n_n.rhsBatch by decide),
    dif_pos (show (0 : Fin S16x2048.rank) ∈ dot_S512x2048_S16x2048_S512x16_1_1_0_0_n_n.rhsNonContracting by decide)]
  rfl

/-- It contracts the right operand's axis 1 as well. -/
theorem rhs_col (i : S512x16.Idx) (k : dot_S512x2048_S16x2048_S512x16_1_1_0_0_n_n.contr.Idx) :
    (dot_S512x2048_S16x2048_S512x16_1_1_0_0_n_n.rhsIdx i k 1).val = (k ⟨0, by decide⟩).val :=
  dot_S512x2048_S16x2048_S512x16_1_1_0_0_n_n.rhsIdx_val_of_single rfl i k

/-- The block product into the zero tile, at (p, q): the inner product of row p of the inputs' block with row q of
    the weights' block, over the block's 2048 positions. -/
theorem blockProduct_apply (x : FVec Ideal S512x2048 .f32) (w : FVec Ideal S16x2048 .f32) (p : Fin 512) (q : Fin 16) :
    matmul dot_S512x2048_S16x2048_S512x16_1_1_0_0_n_n (some .fp32) x w (constant (F := Ideal) S512x16 .f32 0x00000000#32) (ix2 p q)
      = ∑ j : Fin 2048, x (ix2 p j) * w (ix2 q j) := by
  simp only [matmul]
  rw [Ideal.matmul_constant_zero_apply, ← Equiv.sum_comp (contrEquiv1 dot_S512x2048_S16x2048_S512x16_1_1_0_0_n_n 2048 rfl rfl).symm]
  refine Finset.sum_congr rfl fun j _ => ?_
  have hj := contrEquiv1_symm_val dot_S512x2048_S16x2048_S512x16_1_1_0_0_n_n 2048 rfl rfl j
  have el : dot_S512x2048_S16x2048_S512x16_1_1_0_0_n_n.lhsIdx (ix2 p q) ((contrEquiv1 dot_S512x2048_S16x2048_S512x16_1_1_0_0_n_n 2048 rfl rfl).symm j) = ix2 p j :=
    funext fun a => Fin.ext (by
      match a with
      | ⟨0, _⟩ => exact lhs_row _ _
      | ⟨1, _⟩ => exact (lhs_col _ _).trans hj)
  have er : dot_S512x2048_S16x2048_S512x16_1_1_0_0_n_n.rhsIdx (ix2 p q) ((contrEquiv1 dot_S512x2048_S16x2048_S512x16_1_1_0_0_n_n 2048 rfl rfl).symm j) = ix2 q j :=
    funext fun a => Fin.ext (by
      match a with
      | ⟨0, _⟩ => exact rhs_row _ _
      | ⟨1, _⟩ => exact (rhs_col _ _).trans hj)
  rw [el, er]

/-- One step: the tile's entry (p, q) grows by the block's inner product. -/
theorem pay2_apply (x : Vec Ideal S512x2048 .f32) (w : Vec Ideal S16x2048 .f32) (acc : Vec Ideal S512x16 .f32)
    (p : Fin 512) (q : Fin 16) :
    k0_pay2 (F := Ideal) x w acc (ix2 p q) = acc (ix2 p q) + ∑ j : Fin 2048, x (ix2 p j) * w (ix2 q j) := by
  unfold k0_pay2
  rw [shapeCast_self, shapeCast_self, shapeCast_self, addf_apply]
  exact congrArg (acc (ix2 p q) + ·) (blockProduct_apply x w p q)

/-! ## The epilogue: bias, then the softmax of each row -/

/-- The reduced index of row p with the lane c put back is the tile's index (p, c). -/
theorem lane_lift (p : Fin 512) (c : Fin 16) : reduces_S512x16_S512.lift (ix1 p) c = ix2 p c :=
  funext fun a => Fin.ext (by
    match a with
    | ⟨0, _⟩ => rfl
    | ⟨1, _⟩ => rfl)

/-- A row statistic kept as a column and spread over the sixteen lanes reads, at (p, c), the statistic of row p. -/
theorem keepdims_apply {α : Type} (m : S512.Idx → α) (p : Fin 512) (c : Fin 16) :
    broadcastTo S512x16 (shapeCast S512x1 m shapeCasts_S512_S512x1) broadcasts_S512x1_S512x16 (ix2 p c) = m (ix1 p) :=
  (Cert.Layout.broadcastTo_a1_ab_apply _ broadcasts_S512x1_S512x16 p c).trans
    (Cert.Layout.shapeCast_a_a1_apply m shapeCasts_S512_S512x1 p)

/-- The biased scores: the accumulated tile plus the bias row spread over the 512 rows. -/
def scores (s : FVec Ideal S512x16 .f32) (b : FVec Ideal S1x16 .f32) : FVec Ideal S512x16 .f32 :=
  addf s (broadcastTo S512x16 (shapeCast S1x16 b shapeCasts_S1x16_S1x16) broadcasts_S1x16_S512x16)

/-- Entry (p, c) of the biased scores: the accumulated score plus class c's bias. -/
theorem scores_apply (s : FVec Ideal S512x16 .f32) (b : FVec Ideal S1x16 .f32) (p : Fin 512) (c : Fin 16) :
    scores s b (ix2 p c) = s (ix2 p c) + b (ix2 (0 : Fin 1) c) := by
  unfold scores
  rw [addf_apply, shapeCast_self]
  exact congrArg (s (ix2 p c) + ·) (broadcastTo_1b_ab_apply b broadcasts_S1x16_S512x16 p c)

/-- The lane maximum of a tile from minus infinity, at row p: the fold of max over the row's sixteen entries. -/
theorem laneMax_apply (t : FVec Ideal S512x16 .f32) (p : Fin 512) :
    multiReduction .maximumf [1] S512 t 0xFF800000#32 reduces_S512x16_S512 (.inl rfl) rfl (ix1 p)
      = Finset.univ.fold max negInf (fun c : Fin 16 => t (ix2 p c)) := by
  refine (Ideal.multiReduction_maximumf_single t 0xFF800000#32 reduces_S512x16_S512 (.inl rfl) rfl (ix1 p)).trans ?_
  have e : t ∘ reduces_S512x16_S512.lift (ix1 p) = fun c : Fin 16 => t (ix2 p c) :=
    funext fun c => congrArg t (lane_lift p c)
  rw [e]
  rfl

/-- The lane sum of a tile, at row p: the sum of the row's sixteen entries. -/
theorem laneSum_apply (t : FVec Ideal S512x16 .f32) (p : Fin 512) :
    multiReduction .add [1] S512 t 0x00000000#32 reduces_S512x16_S512 (.inl rfl) rfl (ix1 p)
      = ∑ c : Fin 16, t (ix2 p c) := by
  refine (Ideal.multiReduction_add_single t 0x00000000#32 reduces_S512x16_S512 (.inl rfl) rfl (ix1 p)).trans ?_
  exact Finset.sum_congr rfl fun c _ => congrArg t (lane_lift p c)

/-- The tile of row maxima: each row's maximum (of minus infinity and the lane maximum) spread over its lanes. -/
def maxTile (t : FVec Ideal S512x16 .f32) : FVec Ideal S512x16 .f32 :=
  broadcastTo S512x16
    (shapeCast S512x1
      (maximumf (broadcast S512 (Scalar.ofBits .f32 0xFF800000#32))
        (multiReduction .maximumf [1] S512 t 0xFF800000#32 reduces_S512x16_S512 (.inl rfl) rfl))
      shapeCasts_S512_S512x1)
    broadcasts_S512x1_S512x16

/-- Every lane of row p holds the specification's maximum of that row. -/
theorem maxTile_apply (t : FVec Ideal S512x16 .f32) (p : Fin 512) (c : Fin 16) :
    maxTile t (ix2 p c) = rowMax (fun c => t (ix2 p c)) := by
  unfold maxTile
  rw [keepdims_apply, maximumf_apply, broadcast_apply, laneMax_apply]
  rfl

/-- The tile of exponentials of the scores less their row's maximum. -/
def expTile (t : FVec Ideal S512x16 .f32) : FVec Ideal S512x16 .f32 := exp (subf t (maxTile t))

theorem expTile_apply (t : FVec Ideal S512x16 .f32) (p : Fin 512) (c : Fin 16) :
    expTile t (ix2 p c) = Ideal.exp (t (ix2 p c) - rowMax (fun c => t (ix2 p c))) := by
  show Ideal.exp (t (ix2 p c) - maxTile t (ix2 p c)) = _
  rw [maxTile_apply]

/-- The tile of row sums of the exponentials, spread over the lanes. -/
def sumTile (t : FVec Ideal S512x16 .f32) : FVec Ideal S512x16 .f32 :=
  broadcastTo S512x16
    (shapeCast S512x1
      (multiReduction .add [1] S512 (expTile t) 0x00000000#32 reduces_S512x16_S512 (.inl rfl) rfl)
      shapeCasts_S512_S512x1)
    broadcasts_S512x1_S512x16

theorem sumTile_apply (t : FVec Ideal S512x16 .f32) (p : Fin 512) (c : Fin 16) :
    sumTile t (ix2 p c) = ∑ c : Fin 16, Ideal.exp (t (ix2 p c) - rowMax (fun c => t (ix2 p c))) := by
  unfold sumTile
  rw [keepdims_apply, laneSum_apply]
  exact Finset.sum_congr rfl fun c _ => expTile_apply t p c

/-- The last stored value is the quotient of the two tiles of the biased scores. -/
theorem pay3_eq (s : Vec Ideal S512x16 .f32) (b : Vec Ideal S1x16 .f32) :
    k0_pay3 (F := Ideal) s b = divf (expTile (scores s b)) (sumTile (scores s b)) := rfl

/-- The epilogue at (p, q): the softmax of row p's sixteen biased scores, entry q. -/
theorem pay3_apply (s : Vec Ideal S512x16 .f32) (b : Vec Ideal S1x16 .f32) (p : Fin 512) (q : Fin 16) :
    k0_pay3 (F := Ideal) s b (ix2 p q) = rowSoftmax (fun c => s (ix2 p c) + b (ix2 (0 : Fin 1) c)) q := by
  rw [pay3_eq, divf_apply, expTile_apply, sumTile_apply]
  simp only [scores_apply]
  rfl

end Cert.KernelIdeal.Payload

end
-- ==== Proof.Accumulate.lean ====
/-
  The accumulator across the column blocks of one row block.

  After the body has run at a grid point, the carried [512, 16] accumulator holds: at the first column block of a row
  block, the zero block plus that block's partial products; at every later one, what the point before left plus that
  block's partial products. So after the last column block it holds zero plus the sum of the 32 blocks' partial
  products — the full contraction, block by block.
-/
import proofs.«115069_j23124103922240_2_alg».proof.Proof.Gen.KernelIdeal.Value
import proofs.«115069_j23124103922240_2_alg».proof.Proof.Pieces

noncomputable section

open Idealize.ShloMosaic Idealize.ShloMosaic.TcCoe Idealize.SL.Sem

namespace Cert.KernelIdeal.Accumulate

open Cert.KernelIdeal Cert.KernelIdeal.Gen

variable {F : FTy → Type} [FloatOps F]
variable (m : (ℓ : Loc nD τ sig) → Buf (Elt F) ℓ)

/-- One step of the carried accumulator at point `n`, whatever the case: the point's partial products added to the
    zero block at the first column block of a row block, to what the point before left otherwise. -/
theorem step_eq (c : Dev nD) (n : ℕ) (hb : n < cfg0.N) (acc : Vec F S512x16 .f32) :
    Value.scAt0_0 m c n hb acc
      = k0_pay2 (iblk m c 0 (⟨n, hb⟩ : Fin cfg0.N) : Vec F S512x2048 .f32) (iblk m c 1 (⟨n, hb⟩ : Fin cfg0.N) : Vec F S16x2048 .f32)
          (if n % 32 = 0 then k0_pay1 (F := F) else acc) := by
  have hN : n < 64 := lt_of_lt_of_eq hb N_0
  unfold Value.scAt0_0
  by_cases h0 : n % 32 = 0
  · have h1 : ¬ n % 32 = 31 := by omega
    rw [dif_pos h0, dif_neg h1, if_pos h0]
    exact Pieces.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))
  · rw [dif_neg h0, if_neg h0]
    by_cases h1 : n % 32 = 31
    · rw [dif_pos h1]
      exact Pieces.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
    · rw [dif_neg h1]
      exact Pieces.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

end Cert.KernelIdeal.Accumulate

end
-- ==== Proof.HostArrays.lean ====
/-
  The three arrays the kernel's region works on, as functions of the program's arguments.

  Before the region the program flattens the inputs to [1024, 65536], builds the per-class weight matrix
  [16, 65536] out of the two low-rank factors and the mixing weight, and views the bias as a row [1, 16]. The weight matrix
  is built by the very operations the reference uses, so it is named here by the reference's own stage and never
  opened: the two programs' matrices are one term.
-/
import proofs.«115069_j23124103922240_2_alg».proof.Proof.Gen.KernelIdeal.Frame
import proofs.«115069_j23124103922240_2_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.HostArrays

open Cert.KernelIdeal Cert.KernelIdeal.Gen

variable {F : FTy → Type} [FloatOps F]
variable (m : (ℓ : Loc nD τ sig) → Buf (Elt F) ℓ)

/-- The region finds the inputs flattened: the reference's first stage of the same argument. -/
theorem flat_inputs (c : Dev nD) :
    (V m c main_v0 : S1024x65536.Idx → F .f32)
      = Cert.ReferenceIdeal.Read.val_main_v0 (F := F) (m ((c : Thread nD τ).loc main_arg0)) := by
  dsimp only [Gen.V, Gen.hostOps0]; after_results; rfl

/-- The region finds the bias as a row. -/
theorem bias_row (c : Dev nD) :
    (V m c main_v28 : S1x16.Idx → F .f32)
      = shapeCast S1x16 (m ((c : Thread nD τ).loc main_arg4)) shapeCasts_S16_S1x16 := by
  dsimp only [Gen.V, Gen.hostOps0]; after_results; rfl

set_option maxRecDepth 8192 in
set_option maxHeartbeats 2000000 in
/-- The region finds the weight matrix the reference builds: the same operations of the same three arguments. -/
theorem weights (c : Dev nD) :
    (V m c main_v27 : S16x65536.Idx → F .f32)
      = Cert.ReferenceIdeal.Read.val_main_v27 (F := F) (m ((c : Thread nD τ).loc main_arg1))
          (m ((c : Thread nD τ).loc main_arg2)) (m ((c : Thread nD τ).loc main_arg3)) := by
  dsimp only [Gen.V, Gen.hostOps0]
  after_results_simp <;> rfl

end Cert.KernelIdeal.HostArrays

end
-- ==== Proof.KernelSide.lean ====
/-
  The kernel's result array is the specification of the three arrays its region works on.

  Row block `t / 32` of the result is written back once, after the last of its 32 column blocks. By then the
  carried accumulator holds, at `(p, c)`, zero plus the sum over the 32 column blocks of the block's partial
  products `∑ j, X[512·(t/32) + p, 2048·s + j] · W[c, 2048·s + j]`; regrouped, that is the full contraction over the
  65536 columns (addition on the extended reals is commutative and associative: no finiteness is used). The body then
  adds the bias and takes the row's softmax, which is the specification's row `512·(t/32) + p`. The 2 × 512 rows so
  written are all the rows of the result.
-/
import proofs.«115069_j23124103922240_2_alg».proof.Proof.Gen.KernelIdeal.Value
import proofs.«115069_j23124103922240_2_alg».proof.Proof.Spec
import proofs.«115069_j23124103922240_2_alg».proof.Proof.Pieces
import proofs.«115069_j23124103922240_2_alg».proof.Proof.Blocks
import proofs.«115069_j23124103922240_2_alg».proof.Proof.Payloads
import proofs.«115069_j23124103922240_2_alg».proof.Proof.Accumulate
import proofs.«115069_j23124103922240_2_alg».proof.Proof.HostArrays
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx
open Cert.KernelIdeal.Blocks (at2 at2_of_lt index_facts)
open Cert.ClassProbs (classProbs rowSoftmax score)

variable (m : (ℓ : Loc nD τ sig) → Buf (Elt Ideal) ℓ) (ρ : Dev nD → PrngReg)

/-- The flattened inputs, the weight matrix and the bias as the region finds them. -/
abbrev X (c : Dev nD) : S1024x65536.Idx → EReal := V m c main_v0
abbrev W (c : Dev nD) : S16x65536.Idx → EReal := V m c main_v27
abbrev B (c : Dev nD) : S16.Idx → EReal := m ((c : Thread nD τ).loc main_arg4)

/-- Grid point `n`'s partial products at entry `i` of the [512, 16] block: the contraction over the point's 2048
    columns. -/
def partialProducts (c : Dev nD) (n : ℕ) (i : S512x16.Idx) : EReal :=
  ∑ j : Fin 2048, at2 (X m c) (512 * (n / 32) + (i 0).val) (2048 * (n % 32) + j.val)
    * at2 (W m c) (i 1).val (2048 * (n % 32) + j.val)

/-- One accumulation step read at an entry: the accumulator's entry plus the point's partial products. -/
theorem step_apply (c : Dev nD) (n : ℕ) (hb : n < cfg0.N) (acc : Vec Ideal S512x16 .f32) (i : S512x16.Idx) :
    k0_pay2 (F := Ideal) (iblk m c 0 ⟨n, hb⟩ : Vec Ideal S512x2048 .f32) (iblk m c 1 ⟨n, hb⟩ : Vec Ideal S16x2048 .f32) acc i
      = acc i + partialProducts m c n i := by
  obtain ⟨p, q, rfl⟩ : ∃ (p : Fin 512) (q : Fin 16), i = ix2 p q := ⟨i 0, i 1, eq_ix2 i⟩
  refine (Payload.pay2_apply _ _ acc p q).trans ?_
  refine congrArg (acc (ix2 p q) + ·) (Finset.sum_congr rfl fun j _ => ?_)
  exact congrArg₂ (· * ·) (Blocks.inputs_block m c ⟨n, hb⟩ p j) (Blocks.weights_block m c ⟨n, hb⟩ q j)

/-- The accumulator after point `t`: zero plus the partial products of the row block's points up to `t`. -/
theorem accumulator_after (c : Dev nD) (t : Fin cfg0.N) (i : S512x16.Idx) :
    (outsAt0 m c t.val t.isLt).2 i
      = 0 + ∑ s ∈ Finset.range (t.val % 32 + 1), partialProducts m c (32 * (t.val / 32) + s) i := by
  have hN : t.val < 64 := lt_of_lt_of_eq t.isLt N_0
  have hm : t.val % 32 < 32 := Nat.mod_lt _ (by decide)
  rw [Value.soutsAt0_0_eq]
  refine Pipeline.accAt_add_apply (β := EReal) _ _ (fun _ => 0) (partialProducts m c) (32 * (t.val / 32)) 31 ?_ ?_
    (t.val % 32) (by omega) _ i
  · intro h i
    show Value.scAt0_0 m c _ h _ i = _
    rw [Accumulate.step_eq, if_pos (by omega)]
    refine (step_apply m c _ h _ i).trans ?_
    obtain ⟨p, q, rfl⟩ : ∃ (p : Fin 512) (q : Fin 16), i = ix2 p q := ⟨i 0, i 1, eq_ix2 i⟩
    rw [Payload.pay1_apply]
  · intro n h acc i h1 h2
    rw [Accumulate.step_eq, if_neg (by omega)]
    exact step_apply m c n h acc i

/-- What the kernel's result array holds: the specification of the three arrays. -/
abbrev result (c : Dev nD) : S1024x16.Idx → EReal := classProbs (X m c) (W m c) (B m c)

/-- The full contraction of row `r` against class `c'`, block by block. -/
theorem blocks_sum (c : Dev nD) (r : Fin 1024) (c' : Fin 16) :
    ∑ s ∈ Finset.range 32, ∑ j : Fin 2048, at2 (X m c) r.val (2048 * s + j.val) * at2 (W m c) c'.val (2048 * s + j.val)
      = ∑ k : Fin 65536, X m c (ix2 r k) * W m c (ix2 c' k) := by
  rw [← Cert.ClassProbs.sum_columns (fun k => at2 (X m c) r.val k * at2 (W m c) c'.val k)]
  refine Finset.sum_congr rfl fun k _ => ?_
  rw [at2_of_lt _ _ _ r.isLt k.isLt, at2_of_lt _ _ _ c'.isLt k.isLt]

/-- The bias row the body loads, entry `c'`: the bias of class `c'`. -/
theorem bias_apply (c : Dev nD) (t : Fin cfg0.N) (c' : Fin 16) :
    (iblk m c 2 t : S1x16.Idx → EReal) (ix2 (0 : Fin 1) c') = B m c (ix1 c') := by
  rw [Blocks.bias_block, HostArrays.bias_row]
  exact shapeCast_a_1a_apply _ _ (0 : Fin 1) c'

/-- At the last column block of row block `t / 32`, entry `(p, q)` of the block the body stores is entry
    `(512·(t/32) + p, q)` of the specification. -/
theorem block_value (c : Dev nD) (t : Fin cfg0.N) (h31 : t.val % 32 = 31) (p : Fin 512) (q : Fin 16)
    (r : Fin 1024) (hr : r.val = 512 * (t.val / 32) + p.val) :
    k0_pay3 (F := Ideal) ((outsAt0 m c t.val t.isLt).2) (iblk m c 2 t : Vec Ideal S1x16 .f32) (ix2 p q)
      = result m c (ix2 r q) := by
  have hN : t.val < 64 := lt_of_lt_of_eq t.isLt N_0
  refine (Payload.pay3_apply _ _ p q).trans ?_
  show rowSoftmax _ q = rowSoftmax (score (X m c) (W m c) (B m c) r) q
  refine congrArg (fun s => rowSoftmax s q) (funext fun c' => ?_)
  rw [accumulator_after, bias_apply, h31, zero_add]
  unfold Cert.ClassProbs.score
  rw [← blocks_sum]
  refine congrArg (· + B m c (ix1 c')) ?_
  refine Finset.sum_congr rfl fun s hs => ?_
  have hs' : s < 32 := Finset.mem_range.mp hs
  unfold partialProducts
  refine Finset.sum_congr rfl fun j _ => ?_
  have e1 : (32 * (t.val / 32) + s) / 32 = t.val / 32 := by omega
  have e2 : (32 * (t.val / 32) + s) % 32 = s := by omega
  rw [e1, e2]
  show at2 (X m c) (512 * (t.val / 32) + p.val) _ * at2 (W m c) c'.val _ = _
  rw [hr]

/-- Reading an array through the output window's block at point `t` reads it at the block's position in the array. -/
theorem read_block (G : S1024x16.Idx → EReal) (t : Fin cfg0.N) (j : ((cfg0.win 3).xblock (grid0.coords t)).Idx) :
    ((cfg0.win 3).blk t).view.read (Elt Ideal) G j = G (((cfg0.win 3).blk t).view.emb j) := rfl

/-- The part of a [512, 16] block that is written back is the block itself. -/
theorem cut_block (v : S512x16.Idx → EReal) (t : Fin cfg0.N) (j : ((cfg0.win 3).xblock (grid0.coords t)).Idx) :
    (cfg0.win 3).cut (grid0.coords t) v j = v ((cfg0.win 3).xinj (grid0.coords t) j) := rfl

/-- What the write-back after the last column block writes: the block of the specification at the point's rows. -/
theorem flushed_eq (c : Dev nD) (t : Fin cfg0.N) (hf : (cfg0.win 3).flush t = true) :
    (dats m 0 c).flushed 3 t = ((cfg0.win 3).blk t).view.read (Elt Ideal) (result m c) := by
  have hN : t.val < 64 := lt_of_lt_of_eq t.isLt N_0
  have h31 : t.val % 32 = 31 := (flush0_3 t).mp hf
  have h0 : ¬ t.val % 32 = 0 := by omega
  have e : (outsAt0 m c t.val t.isLt).2
      = k0_pay2 (iblk m c 0 t : Vec Ideal S512x2048 .f32) (iblk m c 1 t : Vec Ideal S16x2048 .f32)
          ((outsAt0 m c (t.val - 1) (Nat.lt_of_le_of_lt (Nat.sub_le _ _) t.isLt)).2) := by
    rw [outsAt0_C m c t h0 h31]
    exact Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h31) (iblk m c 0 t) (iblk m c 1 t) (iblk m c 2 t) _
  rw [Value.flushed3_C m c t h0 h31,
    Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h31) (iblk m c 0 t) (iblk m c 1 t) (iblk m c 2 t) _,
    ← e]
  have key : ∀ (j' : S512x16.Idx) (i' : S1024x16.Idx), (i' 0).val = 512 * (t.val / 32) + (j' 0).val → (i' 1).val = (j' 1).val →
      k0_pay3 (F := Ideal) ((outsAt0 m c t.val t.isLt).2) (iblk m c 2 t : Vec Ideal S1x16 .f32) j' = result m c i' := by
    intro j' i' h0' h1'
    obtain ⟨p, q, rfl⟩ : ∃ (p : Fin 512) (q : Fin 16), j' = ix2 p q := ⟨j' 0, j' 1, eq_ix2 j'⟩
    obtain ⟨r, q', rfl⟩ : ∃ (r : Fin 1024) (q' : Fin 16), i' = ix2 r q' := ⟨i' 0, i' 1, eq_ix2 i'⟩
    obtain rfl : q' = q := Fin.ext h1'
    exact block_value m c t h31 p q' r h0'
  funext j
  rw [read_block, cut_block]
  refine key ((cfg0.win 3).xinj (grid0.coords t) j) (((cfg0.win 3).blk t).view.emb j) ?_ ?_
  · show win0_3.index t 0 * 512 + 1 * (j 0).val = 512 * (t.val / 32) + (j 0).val
    rw [(index_facts t).2.2.2.2.2.2.1]; omega
  · show win0_3.index t 1 * 16 + 1 * (j 1).val = (j 1).val
    rw [(index_facts t).2.2.2.2.2.2.2]; omega

/-- An index of the result lies in point `t`'s block iff each coordinate lies in the block's range. -/
theorem mem_block (t : Fin cfg0.N) (i : S1024x16.Idx) :
    i ∈ ((cfg0.win 3).blk t).view.set ↔ ∀ a : Fin 2, win0_3.index t a * S512x16.size a ≤ (i a).val ∧ (i a).val < win0_3.index t a * S512x16.size a + S512x16.size a := by
  show i ∈ ((View.whole main_v29).slice (win0_3.rect t)).set ↔ _
  rw [View.set_slice_whole, Rect.mem_set_unit]
  exact Iff.rfl

/-- Every row of the result is written back: row `r` by the last column block of row block `r / 512`. -/
theorem cover (i : S1024x16.Idx) : ∃ t : Fin cfg0.N, (cfg0.win 3).flush t = true ∧ i ∈ ((cfg0.win 3).blk t).view.set := by
  have hi0 : (i 0).val < 1024 := (i 0).isLt
  have hi1 : (i 1).val < 16 := (i 1).isLt
  have hN : cfg0.N = 64 := N_0
  refine ⟨⟨32 * ((i 0).val / 512) + 31, by rw [hN]; omega⟩, (flush0_3 _).mpr (by show (32 * ((i 0).val / 512) + 31) % 32 = 31; omega), ?_⟩
  rw [mem_block]
  obtain ⟨-, -, -, -, -, -, e0, e1⟩ := index_facts (⟨32 * ((i 0).val / 512) + 31, by rw [hN]; omega⟩ : Fin cfg0.N)
  intro a
  match a with
  | ⟨0, _⟩ =>
    show win0_3.index _ 0 * 512 ≤ (i 0).val ∧ (i 0).val < win0_3.index _ 0 * 512 + 512
    rw [e0]; show (32 * ((i 0).val / 512) + 31) / 32 * 512 ≤ (i 0).val ∧ (i 0).val < (32 * ((i 0).val / 512) + 31) / 32 * 512 + 512
    omega
  | ⟨1, _⟩ =>
    show win0_3.index _ 1 * 16 ≤ (i 1).val ∧ (i 1).val < win0_3.index _ 1 * 16 + 16
    rw [e1]; omega

/-- So the result array after the run is the specification. -/
theorem final (c : Dev nD) : (dats m 0 c).arrAt 3 cfg0.N = result m c :=
  (dats m 0 c).arrAt_eq_of_cover 3 (result m c) (flushed_eq m c) cover

/-- The specification of the arrays the region finds is the specification of the program's arguments, the
    flattened inputs and the weight matrix named by the reference's own stages. -/
theorem result_eq (c : Dev nD) :
    result m c = classProbs
      (Cert.ReferenceIdeal.Read.val_main_v0 (F := Ideal) (m ((c : Thread nD τ).loc main_arg0)))
      (Cert.ReferenceIdeal.Read.val_main_v27 (F := Ideal) (m ((c : Thread nD τ).loc main_arg1))
        (m ((c : Thread nD τ).loc main_arg2)) (m ((c : Thread nD τ).loc main_arg3)))
      (m ((c : Thread nD τ).loc main_arg4)) := by
  show classProbs (X m c) (W m c) (B m c) = _
  unfold X W
  rw [HostArrays.flat_inputs, HostArrays.weights]

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefSide.lean ====
/-
  The reference program computes the specification.

  The reference flattens the inputs to X = [1024, 65536], builds the per-class weight matrix W = [16, 65536] on the
  host, and takes the softmax of X · Wᵀ + b over the sixteen classes. Read index by index this is the
  specification's `classProbs`:

  * the contraction X · Wᵀ at (r, c) is ∑ k, X[r, k] · Wᵀ[k, c], and the transpose reads W at (c, k);
  * the bias is repeated along the rows, so at (r, c) it is b[c];
  * the row maximum is the maximum of minus infinity and the fold of `max` from minus infinity over the sixteen
    scores of the row, and it is repeated over the sixteen columns before it is subtracted;
  * the sum of exponentials of a row starts from the zero word, which is the extended real 0, and is repeated
    over the sixteen columns before the division.

  The flattened input and the weight matrix stay the two stages they are in the reference: nothing here looks
  inside them.
-/
import proofs.«115069_j23124103922240_2_alg».proof.Proof.Gen.ReferenceIdeal.Read
import proofs.«115069_j23124103922240_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Cert.ClassProbs
open Idealize.ShloMosaic Idealize.ShloMosaic.ValueIdx Idealize.ShloMosaic.TcCoe Idealize.SL.Sem Idealize.ShloMosaic.StableHlo

variable (x0 : (⟨S1024x256x256, .f32⟩ : BufTy).Contents (Elt Ideal))
  (x1 : (⟨S16x64x8, .f32⟩ : BufTy).Contents (Elt Ideal))
  (x2 : (⟨S16x256x2, .f32⟩ : BufTy).Contents (Elt Ideal))
  (x3 x4 : (⟨S16, .f32⟩ : BufTy).Contents (Elt Ideal))

/-- The scores. At row `r` and class `c` the reference's contraction reads X at (r, k) and, through the transpose,
    W at (c, k); the bias repeated along the rows is b[c]. -/
theorem scores_apply (r : Fin 1024) (c : Fin 16) :
    val_main_v32 (F := Ideal) x0 x1 x2 x3 x4 (ix2 r c)
      = score (val_main_v0 (F := Ideal) x0) (val_main_v27 (F := Ideal) x1 x2 x3) x4 r c := by
  have el : ∀ k : Fin 65536, lidx_main_v29 (ix2 r c) k = ix2 r k := fun k =>
    funext fun a => Fin.ext (by match a with | ⟨0, _⟩ => rfl | ⟨1, _⟩ => rfl)
  have er : ∀ k : Fin 65536, idx_main_v28 (ridx_main_v29 (ix2 r c) k) = ix2 c k := fun k =>
    funext fun a => Fin.ext (by match a with | ⟨0, _⟩ => rfl | ⟨1, _⟩ => rfl)
  have eb : idx_main_v30 (idx_main_v31 (ix2 r c)) = ix1 c :=
    funext fun a => Fin.ext (by match a with | ⟨0, _⟩ => rfl)
  rw [val_main_v32_apply, val_main_v29_apply, val_main_v31_apply, val_main_v30_apply, eb, Ideal.addf_def]
  unfold score
  refine congrArg (· + x4 (ix1 c)) (Finset.sum_congr rfl fun k _ => ?_)
  rw [val_main_v28_apply, el, er]

/-- Class `k` put back into the reduced row index `r` is the index (r, k). -/
theorem lift_row (h : S1024x16.Reduces [1] S1024) (r : Fin 1024) (k : Fin (S1024x16.size 1)) :
    h.lift (ix1 r) k = ix2 r (⟨k.val, k.isLt⟩ : Fin 16) := by
  funext a
  apply Fin.ext
  match a with
  | ⟨0, _⟩ => rfl
  | ⟨1, _⟩ => rfl

/-- The reference's row maximum at row `r`: the maximum of minus infinity and the fold of `max` from minus
    infinity over the row's sixteen scores. -/
theorem rowMax_apply (r : Fin 1024) :
    val_main_v35 (F := Ideal) x0 x1 x2 x3 x4 (ix1 r)
      = rowMax (score (val_main_v0 (F := Ideal) x0) (val_main_v27 (F := Ideal) x1 x2 x3) x4 r) := by
  have h : S1024x16.Reduces [1] S1024 := by decide
  rw [val_main_v35_apply, val_main_v34_apply, val_main_cst_3_apply, Ideal.maximumf_def, Ideal.ofBits_def]
  unfold rowMax val_main_v33
  rw [Host.reduce_eq_fold_single (FloatOps.maximumf (F := Ideal) (φ := .f32))
    (val_main_v32 (F := Ideal) x0 x1 x2 x3 x4) _ reducesTo_S1024x16_S1024_d1 h h_S_,
    val_main_cst_2_apply, Ideal.ofBits_def]
  have hf : (val_main_v32 (F := Ideal) x0 x1 x2 x3 x4 ∘ h.lift (ix1 r))
      = score (val_main_v0 (F := Ideal) x0) (val_main_v27 (F := Ideal) x1 x2 x3) x4 r :=
    funext fun k => (congrArg (val_main_v32 (F := Ideal) x0 x1 x2 x3 x4) (lift_row h r k)).trans
      (scores_apply x0 x1 x2 x3 x4 r ⟨k.val, k.isLt⟩)
  exact congrArg (fun f => max negInf (Finset.fold max negInf f (Finset.univ : Finset (Fin 16)))) hf

/-- The reference's exponentials at (r, q): the exponential of the score less the row's maximum. -/
theorem exps_apply (r : Fin 1024) (q : Fin 16) :
    val_main_v39 (F := Ideal) x0 x1 x2 x3 x4 (ix2 r q)
      = Ideal.exp (score (val_main_v0 (F := Ideal) x0) (val_main_v27 (F := Ideal) x1 x2 x3) x4 r q
          - rowMax (score (val_main_v0 (F := Ideal) x0) (val_main_v27 (F := Ideal) x1 x2 x3) x4 r)) := by
  have e : idx_main_v36 (idx_main_v37 (ix2 r q)) = ix1 r :=
    funext fun a => Fin.ext (by match a with | ⟨0, _⟩ => rfl)
  rw [val_main_v39_apply, val_main_v38_apply, val_main_v37_apply, val_main_v36_apply, e, rowMax_apply,
    scores_apply, Ideal.hostUnary_exp_def, Ideal.subf_def]

/-- The reference's sum of exponentials of row `r`; the zero word it starts from is the extended real 0. -/
theorem expSum_apply (r : Fin 1024) :
    val_main_v40 (F := Ideal) x0 x1 x2 x3 x4 (ix1 r)
      = ∑ c : Fin 16, Ideal.exp (score (val_main_v0 (F := Ideal) x0) (val_main_v27 (F := Ideal) x1 x2 x3) x4 r c
          - rowMax (score (val_main_v0 (F := Ideal) x0) (val_main_v27 (F := Ideal) x1 x2 x3) x4 r)) := by
  have e : ∀ k : Fin 16, idx_main_v40 (ix1 r) k = ix2 r k := fun k =>
    funext fun a => Fin.ext (by match a with | ⟨0, _⟩ => rfl | ⟨1, _⟩ => rfl)
  rw [val_main_v40_apply, val_main_cst_4_apply, Ideal.ofBits_def, Ideal.ofBits_zero_f32, zero_add]
  refine Finset.sum_congr rfl fun k _ => ?_
  rw [e, exps_apply]

/-- The reference's result is the specification: row by row the softmax of the scores. -/
theorem reference_eq_classProbs :
    val_main_v43 (F := Ideal) x0 x1 x2 x3 x4
      = classProbs (val_main_v0 (F := Ideal) x0) (val_main_v27 (F := Ideal) x1 x2 x3) x4 := by
  funext i
  obtain ⟨r, q, rfl⟩ : ∃ (r : Fin 1024) (q : Fin 16), i = ix2 r q := ⟨i 0, i 1, eq_ix2 i⟩
  have e : idx_main_v41 (idx_main_v42 (ix2 r q)) = ix1 r :=
    funext fun a => Fin.ext (by match a with | ⟨0, _⟩ => rfl)
  rw [val_main_v43_apply, val_main_v42_apply, val_main_v41_apply, e, expSum_apply, exps_apply, Ideal.hostDivf_def]
  rfl

end Cert.ReferenceIdeal.RefValue

end
-- ==== Proof.lean ====
/-
  softmax(x · Wᵀ + b), computed two ways, over the extended reals.

  Both programs flatten the inputs to X = [1024, 65536] and build the same per-class weight matrix W = [16, 65536]
  with the same operations. The reference contracts the 65536 columns at once, adds the bias and takes the softmax
  of each row of sixteen scores. The kernel walks a 2 × 32 grid: for each block of 512 rows it contracts the columns
  in 32 consecutive blocks of 2048, adding each block's partial products into an accumulator that starts from zero,
  and after the last block adds the bias, takes the same softmax and writes the 512 rows back.

  The two results are one function of (X, W, b) (`Cert.ClassProbs.classProbs`): the only difference is the grouping
  of a finite sum, and addition on the extended reals is commutative and associative, so no finiteness of the inputs
  is needed. The kernel's side (the accumulator across the grid, the blocks as pieces of the arrays, the body's
  arithmetic read at an index) is `Cert.KernelIdeal.Result`; the reference's side is `Cert.ReferenceIdeal.RefValue`.
  The idealization rewrote nothing, so it preserves the kernel trivially; the three frames are the programs' runs.
-/
import proofs.«115069_j23124103922240_2_alg».proof.Defs
import proofs.«115069_j23124103922240_2_alg».proof.Proof.Gen.Kernel
import proofs.«115069_j23124103922240_2_alg».proof.Proof.Gen.Kernel.Skeleton
import proofs.«115069_j23124103922240_2_alg».proof.Proof.Gen.Kernel.Launch
import proofs.«115069_j23124103922240_2_alg».proof.Proof.Gen.Kernel.Points
import proofs.«115069_j23124103922240_2_alg».proof.Proof.Gen.Kernel.Frame
import proofs.«115069_j23124103922240_2_alg».proof.Proof.Gen.KernelIdeal
import proofs.«115069_j23124103922240_2_alg».proof.Proof.Gen.KernelIdeal.Skeleton
import proofs.«115069_j23124103922240_2_alg».proof.Proof.Gen.KernelIdeal.Launch
import proofs.«115069_j23124103922240_2_alg».proof.Proof.Gen.KernelIdeal.Points
import proofs.«115069_j23124103922240_2_alg».proof.Proof.Gen.KernelIdeal.Frame
import proofs.«115069_j23124103922240_2_alg».proof.Proof.Gen.ReferenceIdeal
import proofs.«115069_j23124103922240_2_alg».proof.Proof.Gen.Pre_finite_inputs
import proofs.«115069_j23124103922240_2_alg».proof.Proof.Gen.KernelIdeal.Value
import proofs.«115069_j23124103922240_2_alg».proof.Proof.Gen.ReferenceIdeal.Run
import proofs.«115069_j23124103922240_2_alg».proof.Proof.Gen.ReferenceIdeal.Read
import proofs.«115069_j23124103922240_2_alg».proof.Proof.KernelSide
import proofs.«115069_j23124103922240_2_alg».proof.Proof.RefSide
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, both programs end with the row-wise softmax of
    `X · Wᵀ + b` of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.result m c
  rw [Cert.ReferenceIdeal.Read.val_main_v43_eq, Cert.ReferenceIdeal.RefValue.reference_eq_classProbs,
    (hagree c).1, (hagree c).2.1, (hagree c).2.2.1, (hagree c).2.2.2.1, (hagree c).2.2.2.2]
  exact (Cert.KernelIdeal.Result.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
